-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x256 : Shape := ⟨2, ![320000, 256]⟩
abbrev S320000 : Shape := ⟨1, ![320000]⟩
abbrev S256x512 : Shape := ⟨2, ![256, 512]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S320000x256 .f32) (main_arg2 : IVec S320000 32) (main_arg3 : IVec S320000 32) (main_arg4 : FVec F S256x512 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S320000x256 : Shape := ⟨2, ![320000, 256]⟩
abbrev S320000 : Shape := ⟨1, ![320000]⟩
abbrev S256x512 : Shape := ⟨2, ![256, 512]⟩
abbrev S256 : Shape := ⟨1, ![256]⟩
abbrev S_ : Shape := ⟨0, ![]⟩
abbrev S320000x1 : Shape := ⟨2, ![320000, 1]⟩
abbrev S256x256 : Shape := ⟨2, ![256, 256]⟩
abbrev S1x256 : Shape := ⟨2, ![1, 256]⟩
abbrev S1000x256 : Shape := ⟨2, ![1000, 256]⟩

abbrev nBuf : Space → Nat
  | .hbm => 28
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S256, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S_, .f32⟩
  | .hbm, ⟨17, _⟩ => ⟨S10000x256, .f32⟩
  | .hbm, ⟨18, _⟩ => ⟨S320000x1, .i32⟩
  | .hbm, ⟨19, _⟩ => ⟨S10000x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S256x256, .f32⟩
  | .hbm, ⟨25, _⟩ => ⟨S256x256, .bf16⟩
  | .hbm, ⟨26, _⟩ => ⟨S1x256, .f32⟩
  | .hbm, ⟨27, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  slices_S256x512_S256x256_0_0 : S256x512.Slices ![0, 0] S256x256
  slices_S256x512_S256x256_0_256 : S256x512.Slices ![0, 256] S256x256
  transposes_S256x256_S256x256_1_0 : S256x256.Transposes [1, 0] S256x256
  bitsLt_bf16_f32 : FTy.bits .bf16 < FTy.bits .f32
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S10000x256.size a
  hwx0_1 : ∀ i : grid0.Coords, EltTy.bits .f32 = 32 ∨ (Rect.block (s := S10000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S320000x256 : Shape := ⟨2, ![320000, 256]⟩
abbrev S320000 : Shape := ⟨1, ![320000]⟩
abbrev S256x512 : Shape := ⟨2, ![256, 512]⟩
abbrev S256 : Shape := ⟨1, ![256]⟩
abbrev S_ : Shape := ⟨0, ![]⟩
abbrev S320000x1 : Shape := ⟨2, ![320000, 1]⟩
abbrev S10000x512 : Shape := ⟨2, ![10000, 512]⟩
abbrev S512x256 : Shape := ⟨2, ![512, 256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S256, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S_, .f32⟩
  | .hbm, ⟨17, _⟩ => ⟨S10000x256, .f32⟩
  | .hbm, ⟨18, _⟩ => ⟨S320000x1, .i32⟩
  | .hbm, ⟨19, _⟩ => ⟨S10000x256, .f32⟩
  | .hbm, ⟨20, _⟩ => ⟨S10000x512, .f32⟩
  | .hbm, ⟨21, _⟩ => ⟨S512x256, .f32⟩
  | .hbm, ⟨22, _⟩ => ⟨S10000x256, .f32⟩
  | .hbm, ⟨23, _⟩ => ⟨S1x256, .f32⟩
  | .hbm, ⟨24, _⟩ => ⟨S10000x256, .f32⟩
  | .hbm, ⟨25, _⟩ => ⟨S10000x256, .f32⟩
  | .hbm, ⟨26, _⟩ => ⟨S_, .f32⟩
  | .hbm, ⟨27, _⟩ => ⟨S10000x256, .f32⟩
  | .hbm, ⟨28, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  concatenates_S10000x256_S10000x256_S10000x512_d1 : Shape.Concatenates [S10000x256, S10000x256] S10000x512 1
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Spec.lean ====
/-
  The layer both programs compute, as one function of the arrays, index by index, on the extended reals.

  Row `n`, output feature `d`:   max ( Σ_{k<256} x[n,k]·W[d,k]  +  Σ_{k<256} r[n,k]·W[d,256+k]  +  b[d] , 0 )
  where `x` is the node-feature array, `r` the per-node sum of incoming messages, `W` the [256, 512] weight and `b`
  the bias.  One program multiplies the two halves of the weight separately and adds the products; the other joins
  `x` and `r` side by side into a [10000, 512] array and contracts it against the whole weight at once.  The only law
  between the two is that a sum over 512 columns is the sum over the first 256 plus the sum over the last 256
  (`sum_cols_split`): a re-bracketing of one finite sum in a commutative monoid, so it holds on the extended reals
  with no finiteness hypothesis.
-/
import Idealize.ShloMosaic.PureOps.Ideal
import Idealize.ShloMosaic.Lib.ValueIdx

noncomputable section

open scoped BigOperators
open Idealize.ShloMosaic Idealize.ShloMosaic.ValueIdx

namespace Cert.LinRelu

/-- Column `k` of the weight's first 256 input columns (the ones that meet the node features). -/
abbrev colLo (k : Fin 256) : Fin 512 := ⟨k.val, by omega⟩
/-- Column `256 + k` of the weight: the input columns that meet the summed messages. -/
abbrev colHi (k : Fin 256) : Fin 512 := ⟨256 + k.val, by omega⟩

/-- The layer: relu of the two half-products plus the bias. -/
def layer (x r : (⟨2, ![10000, 256]⟩ : Shape).Idx → EReal) (W : (⟨2, ![256, 512]⟩ : Shape).Idx → EReal)
    (b : (⟨1, ![256]⟩ : Shape).Idx → EReal) : (⟨2, ![10000, 256]⟩ : Shape).Idx → EReal :=
  fun i => max (((∑ k : Fin 256, x (ix2 (i 0 : Fin 10000) k) * W (ix2 (i 1 : Fin 256) (colLo k)))
      + ∑ k : Fin 256, r (ix2 (i 0 : Fin 10000) k) * W (ix2 (i 1 : Fin 256) (colHi k))) + b (ix1 (i 1 : Fin 256))) 0

/-- A sum over the 512 joined columns is the sum over the first 256 plus the sum over the last 256. -/
theorem sum_cols_split {M : Type*} [AddCommMonoid M] (f : Fin 512 → M) :
    ∑ k : Fin 512, f k = (∑ k : Fin 256, f (colLo k)) + ∑ k : Fin 256, f (colHi k) := by
  have h := Fin.sum_univ_add (a := 256) (b := 256) (f : Fin (256 + 256) → M)
  exact h

end Cert.LinRelu

end
-- ==== Proof.Payload.lean ====
/-
  What the kernel body stores for one tile of 1000 rows, read at one element.

  The body loads a [1000, 256] tile `x` of node features, the matching tile `r` of summed messages, the two
  [256, 256] weight halves `u`, `v` (already transposed: row = input column, column = output feature) and the
  [1, 256] bias row `β`, and stores  max(x·u + r·v + β, 0).  At row `p`, feature `q` that is
      max ( Σ_k x[p,k]·u[k,q]  +  Σ_k r[p,k]·v[k,q]  +  β[0,q] , 0 ).
  The narrowing of the tiles to 16-bit floats before the products is the identity on extended reals, each product
  into a zero accumulator is the plain sum over the contracted axis, the shape casts are between equal shapes, and
  the bias row is repeated down the 1000 rows.
-/
import proofs.«182218_j17403207483852_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- The tile product's dimension numbers: contract the left operand's columns with the right operand's rows. -/
abbrev tileDot : DotDims S1000x256 S256x256 S1000x256 := dot_S1000x256_S256x256_S1000x256_1_0_0_1_n_n

theorem tileDot_lhs0 (i : S1000x256.Idx) (κ : tileDot.contr.Idx) : (tileDot.lhsIdx i κ 0).val = (i 0).val := by
  unfold DotDims.lhsIdx
  rw [dif_neg (show ¬(0 : Fin S1000x256.rank) ∈ tileDot.lhsBatch by decide), dif_pos (show (0 : Fin S1000x256.rank) ∈ tileDot.lhsNonContracting by decide)]
  rfl
theorem tileDot_lhs1 (i : S1000x256.Idx) (κ : tileDot.contr.Idx) : (tileDot.lhsIdx i κ 1).val = (κ ⟨0, by decide⟩).val :=
  tileDot.lhsIdx_val_of_single rfl i κ
theorem tileDot_rhs0 (i : S1000x256.Idx) (κ : tileDot.contr.Idx) : (tileDot.rhsIdx i κ 0).val = (κ ⟨0, by decide⟩).val :=
  tileDot.rhsIdx_val_of_single rfl i κ
theorem tileDot_rhs1 (i : S1000x256.Idx) (κ : tileDot.contr.Idx) : (tileDot.rhsIdx i κ 1).val = (i 1).val := by
  unfold DotDims.rhsIdx
  rw [dif_neg (show ¬(1 : Fin S256x256.rank) ∈ tileDot.rhsBatch by decide), dif_pos (show (1 : Fin S256x256.rank) ∈ tileDot.rhsNonContracting by decide)]
  rfl

/-- A tile product into the zero accumulator, at row `p` and column `q`: the sum over the 256 contracted positions. -/
theorem tile_product_apply (l : FVec Ideal S1000x256 .bf16) (w : FVec Ideal S256x256 .bf16) (p : Fin 1000) (q : Fin 256) :
    matmul (F := Ideal) tileDot none l w (constant (F := Ideal) S1000x256 .f32 0x00000000#32) (ix2 p q)
      = ∑ k : Fin 256, l (ix2 p k) * w (ix2 k q) := by
  simp only [matmul]
  rw [Ideal.matmul_constant_zero_apply, ← Equiv.sum_comp (contrEquiv1 tileDot 256 rfl rfl).symm]
  refine Finset.sum_congr rfl fun k _ => ?_
  have hk := contrEquiv1_symm_val tileDot 256 rfl rfl k
  have el : tileDot.lhsIdx (ix2 p q) ((contrEquiv1 tileDot 256 rfl rfl).symm k) = ix2 p k := funext fun a => Fin.ext (by
    match a with
    | ⟨0, _⟩ => exact tileDot_lhs0 _ _
    | ⟨1, _⟩ => exact (tileDot_lhs1 _ _).trans hk)
  have er : tileDot.rhsIdx (ix2 p q) ((contrEquiv1 tileDot 256 rfl rfl).symm k) = ix2 k q := funext fun a => Fin.ext (by
    match a with
    | ⟨0, _⟩ => exact (tileDot_rhs0 _ _).trans hk
    | ⟨1, _⟩ => exact tileDot_rhs1 _ _)
  rw [el, er]

/-- The bias row repeated down the tile's rows, at row `p` and column `q`, is the row's entry `q`. -/
theorem bias_rows_apply (β : FVec Ideal S1x256 .f32) (p : Fin 1000) (q : Fin 256) :
    broadcastTo S1000x256 (shapeCast S1x256 β shapeCasts_S1x256_S1x256) broadcasts_S1x256_S1000x256 (ix2 p q)
      = β (ix2 (0 : Fin 1) q) := by
  rw [broadcastTo_apply _ broadcasts_S1x256_S1000x256 (ix2 p q) (ix2 (0 : Fin 1) q) (fun a => by
    match a with
    | ⟨0, _⟩ => rfl
    | ⟨1, _⟩ => rfl)]
  rw [shapeCast_self]

/-- The stored tile at row `p`, feature `q`. -/
theorem stored_apply (x r : Vec Ideal S1000x256 .f32) (u v : Vec Ideal S256x256 .bf16) (β : Vec Ideal S1x256 .f32)
    (p : Fin 1000) (q : Fin 256) :
    k0_pay1 (F := Ideal) x r u v β (ix2 p q)
      = max (((∑ k : Fin 256, x (ix2 p k) * u (ix2 k q)) + ∑ k : Fin 256, r (ix2 p k) * v (ix2 k q)) + β (ix2 (0 : Fin 1) q)) 0 := by
  unfold k0_pay1
  rw [maximumf_apply, addf_apply, addf_apply, broadcast_apply]
  rw [bias_rows_apply, tile_product_apply, tile_product_apply]
  simp only [shapeCast_self, truncf_apply]
  rw [show (Scalar.ofBits (F := Ideal) .f32 0x00000000#32 : EReal) = 0 from Ideal.ofBits_zero_f32]

end Cert.KernelIdeal.Tile

end
-- ==== Proof.Entry.lean ====
/-
  What the kernel's launch finds in the arrays its windows stage, as functions of the program's arguments.

  Before the launch the host computes: the per-node sum of incoming messages `r` (a gather of node rows by source,
  times the edge features, added into the rows named by destination — kept here as ONE term of the arguments, the same
  term the reference computes, and never opened); the two halves of the weight, each transposed and narrowed to a
  16-bit float format (the identity on extended reals), so that entry (k, q) of the first is W[q, k] and of the second
  W[q, 256 + k]; and the bias as a one-row array.
-/
import proofs.«182218_j17403207483852_2_alg».proof.Proof.Gen.KernelIdeal.Frame
import proofs.«182218_j17403207483852_2_alg».proof.Proof.Spec
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen Cert.LinRelu

/-- The per-node sum of incoming messages, as the host computes it: for every edge the source node's row (negative
    source numbers counted from the end) times the edge's features, added into the destination node's row of a zero
    array. -/
def messages (x0 : S10000x256.Idx → EReal) (x1 : S320000x256.Idx → EReal) (x2 x3 : S320000.Idx → BitVec 32) :
    S10000x256.Idx → EReal :=
  Host.scatterAdd (F := Ideal) scatter_S10000x256_S320000x1_S320000x256_1_0_0_1
    (broadcastInDim S10000x256 ![] bcast_S_S10000x256 (constant (F := Ideal) S_ .f32 0x00000000#32))
    (broadcastInDim S320000x1 ![0] bcast_S320000_S320000x1_0 x3)
    (mulf (F := Ideal)
      (Host.gather gather_S10000x256_S320000x1_S320000x256_1_0_n_n_0_1_1256 x0
        (broadcastInDim S320000x1 ![0] bcast_S320000_S320000x1_0
          (select (cmpi .slt x2 (broadcastInDim S320000 ![] bcast_S_S320000 (constantI S_ 32 0#32)))
            (addi x2 (broadcastInDim S320000 ![] bcast_S_S320000 (constantI S_ 32 10000#32))) x2)))
      x1)

variable (m : (ℓ : Loc nD τ sig) → Buf (Elt Ideal) ℓ)

/-- The second staged array is the summed messages of the arguments. -/
theorem entry_messages (c : Dev nD) :
    (V m c main_v10 : S10000x256.Idx → EReal)
      = messages (m ((c : Thread nD τ).loc main_arg0)) (m ((c : Thread nD τ).loc main_arg1))
          (m ((c : Thread nD τ).loc main_arg2)) (m ((c : Thread nD τ).loc main_arg3)) := by
  dsimp only [Gen.V, Gen.hostOps0]; after_results <;> rfl

/-- The first weight half as staged: entry (k, q) is W[q, k]. -/
theorem entry_weight_lo (c : Dev nD) (k q : Fin 256) :
    (V m c main_v14 : S256x256.Idx → EReal) (ix2 k q)
      = (m ((c : Thread nD τ).loc main_arg4) : S256x512.Idx → EReal) (ix2 q (colLo k)) := by
  have e : (V m c main_v14 : S256x256.Idx → EReal)
      = truncf (F := Ideal) .bf16 (transpose S256x256 [1, 0]
          (extractStridedSlice S256x256 ![0, 0] (m ((c : Thread nD τ).loc main_arg4) : S256x512.Idx → EReal) slices_S256x512_S256x256_0_0)
          transposes_S256x256_S256x256_1_0) bitsLt_bf16_f32 := by
    dsimp only [Gen.V, Gen.hostOps0]; after_results <;> rfl
  rw [e, truncf_apply]
  rw [transpose_apply [1, 0] _ transposes_S256x256_S256x256_1_0 (ix2 k q) (ix2 q k) (fun b => match b with
    | ⟨0, _⟩ => rfl
    | ⟨1, _⟩ => rfl)]
  exact extractStridedSlice_apply _ _ slices_S256x512_S256x256_0_0 (ix2 q k) (ix2 q (colLo k)) (fun a => match a with
    | ⟨0, _⟩ => by show q.val = 0 + q.val; omega
    | ⟨1, _⟩ => by show k.val = 0 + k.val; omega)

/-- The second weight half as staged: entry (k, q) is W[q, 256 + k]. -/
theorem entry_weight_hi (c : Dev nD) (k q : Fin 256) :
    (V m c main_v16 : S256x256.Idx → EReal) (ix2 k q)
      = (m ((c : Thread nD τ).loc main_arg4) : S256x512.Idx → EReal) (ix2 q (colHi k)) := by
  have e : (V m c main_v16 : S256x256.Idx → EReal)
      = truncf (F := Ideal) .bf16 (transpose S256x256 [1, 0]
          (extractStridedSlice S256x256 ![0, 256] (m ((c : Thread nD τ).loc main_arg4) : S256x512.Idx → EReal) slices_S256x512_S256x256_0_256)
          transposes_S256x256_S256x256_1_0) bitsLt_bf16_f32 := by
    dsimp only [Gen.V, Gen.hostOps0]; after_results <;> rfl
  rw [e, truncf_apply]
  rw [transpose_apply [1, 0] _ transposes_S256x256_S256x256_1_0 (ix2 k q) (ix2 q k) (fun b => match b with
    | ⟨0, _⟩ => rfl
    | ⟨1, _⟩ => rfl)]
  exact extractStridedSlice_apply _ _ slices_S256x512_S256x256_0_256 (ix2 q k) (ix2 q (colHi k)) (fun a => match a with
    | ⟨0, _⟩ => by show q.val = 0 + q.val; omega
    | ⟨1, _⟩ => by show 256 + k.val = 256 + k.val; rfl)

/-- The bias as staged, a one-row array: entry (0, q) is b[q]. -/
theorem entry_bias (c : Dev nD) (q : Fin 256) :
    (V m c main_v17 : S1x256.Idx → EReal) (ix2 (0 : Fin 1) q)
      = (m ((c : Thread nD τ).loc main_arg5) : S256.Idx → EReal) (ix1 q) := by
  have e : (V m c main_v17 : S1x256.Idx → EReal)
      = shapeCast S1x256 (m ((c : Thread nD τ).loc main_arg5) : S256.Idx → EReal) shapeCasts_S256_S1x256 := by
    dsimp only [Gen.V, Gen.hostOps0]; after_results <;> rfl
  rw [e]
  exact shapeCast_apply _ shapeCasts_S256_S1x256 (ix2 (0 : Fin 1) q) (ix1 q) (by
    rw [Shape.rowMajor_val_one, Shape.rowMajor_val_two]
    show q.val = 0 * 256 + q.val
    omega)

end Cert.KernelIdeal.Entry

end
-- ==== Proof.Whole.lean ====
/-
  From tiles to the whole result array.

  The grid has ten points; point `t` stages rows 1000·t … 1000·t + 999 of the node features and of the summed
  messages, the two whole weight halves and the whole bias row, and writes back rows 1000·t … 1000·t + 999 of the
  result.  So the element the point stores at (p, q) is the layer's element at row 1000·t + p, feature q; the ten
  row tiles cover the array (row `n` lies in tile `n / 1000`), and the array after the run is the layer of the
  arguments.
-/
import proofs.«182218_j17403207483852_2_alg».proof.Proof.Gen.KernelIdeal.Value
import proofs.«182218_j17403207483852_2_alg».proof.Proof.Spec
import proofs.«182218_j17403207483852_2_alg».proof.Proof.Payload
import proofs.«182218_j17403207483852_2_alg».proof.Proof.Entry
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.LinRelu Cert.KernelIdeal.Entry

variable (m : (ℓ : Loc nD τ sig) → Buf (Elt Ideal) ℓ) (ρ : Dev nD → PrngReg)

theorem zero_offsets : (![0, 0] : Fin 2 → Nat) = fun _ => 0 := funext fun a => by fin_cases a <;> rfl

/-- The block each window is on at point `t`, decided over the ten points: the two row-tiled inputs and the output
    are on block row `t`, the weights and the bias always on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result array: the layer of the node features, the summed messages of the arguments, the weight and the bias. -/
def result (c : Dev nD) : S10000x256.Idx → EReal :=
  layer (m ((c : Thread nD τ).loc main_arg0))
    (messages (m ((c : Thread nD τ).loc main_arg0)) (m ((c : Thread nD τ).loc main_arg1))
      (m ((c : Thread nD τ).loc main_arg2)) (m ((c : Thread nD τ).loc main_arg3)))
    (m ((c : Thread nD τ).loc main_arg4)) (m ((c : Thread nD τ).loc main_arg5))

/-! ## Each staged block, read at an element -/

/-- The node-feature tile at point `t`: row `p` of the tile is row 1000·t + p of the array. -/
theorem tile_features (c : Dev nD) (t : Fin cfg0.N) (n : Fin 10000) (p : Fin 1000) (hn : n.val = 1000 * t.val + p.val) (k : Fin 256) :
    (iblk m c 0 t : Vec Ideal S1000x256 .f32) (ix2 p k)
      = (m ((c : Thread nD τ).loc main_arg0) : S10000x256.Idx → EReal) (ix2 n k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 1000 + 1 * p.val = n.val; rw [e0, hn]; omega
  | ⟨1, _⟩ => show win0_0.index t (1 : Fin 2) * 256 + 1 * k.val = k.val; rw [e1]; omega

/-- The summed-message tile at point `t`, likewise. -/
theorem tile_messages (c : Dev nD) (t : Fin cfg0.N) (n : Fin 10000) (p : Fin 1000) (hn : n.val = 1000 * t.val + p.val) (k : Fin 256) :
    (iblk m c 1 t : Vec Ideal S1000x256 .f32) (ix2 p k)
      = messages (m ((c : Thread nD τ).loc main_arg0)) (m ((c : Thread nD τ).loc main_arg1))
          (m ((c : Thread nD τ).loc main_arg2)) (m ((c : Thread nD τ).loc main_arg3)) (ix2 n k) := by
  obtain ⟨-, -, e0, e1, -⟩ := block_indices t
  unfold iblk
  rw [View.read_apply]
  show (V m c main_v10 : S10000x256.Idx → EReal) _ = _
  rw [entry_messages]
  refine congrArg _ (funext fun a => Fin.ext ?_)
  match a with
  | ⟨0, _⟩ => show win0_1.index t (0 : Fin 2) * 1000 + 1 * p.val = n.val; rw [e0, hn]; omega
  | ⟨1, _⟩ => show win0_1.index t (1 : Fin 2) * 256 + 1 * k.val = k.val; rw [e1]; omega

/-- The first weight half, staged whole at every point: entry (k, q) is W[q, k]. -/
theorem block_weight_lo (c : Dev nD) (t : Fin cfg0.N) (k q : Fin 256) :
    (iblk m c 2 t : Vec Ideal S256x256 .bf16) (ix2 k q)
      = (m ((c : Thread nD τ).loc main_arg4) : S256x512.Idx → EReal) (ix2 q (colLo k)) := by
  obtain ⟨-, -, -, -, e0, e1, -⟩ := block_indices t
  unfold iblk
  rw [View.read_apply]
  show (V m c main_v14 : S256x256.Idx → EReal) _ = _
  rw [← entry_weight_lo m c k q]
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- The second weight half: entry (k, q) is W[q, 256 + k]. -/
theorem block_weight_hi (c : Dev nD) (t : Fin cfg0.N) (k q : Fin 256) :
    (iblk m c 3 t : Vec Ideal S256x256 .bf16) (ix2 k q)
      = (m ((c : Thread nD τ).loc main_arg4) : S256x512.Idx → EReal) (ix2 q (colHi k)) := by
  obtain ⟨-, -, -, -, -, -, e0, e1, -⟩ := block_indices t
  unfold iblk
  rw [View.read_apply]
  show (V m c main_v16 : S256x256.Idx → EReal) _ = _
  rw [← entry_weight_hi m c k q]
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- The bias row: entry (0, q) is b[q]. -/
theorem block_bias (c : Dev nD) (t : Fin cfg0.N) (q : Fin 256) :
    (iblk m c 4 t : Vec Ideal S1x256 .f32) (ix2 (0 : Fin 1) q)
      = (m ((c : Thread nD τ).loc main_arg5) : S256.Idx → EReal) (ix1 q) := by
  obtain ⟨-, -, -, -, -, -, -, -, e0, e1, -⟩ := block_indices t
  unfold iblk
  rw [View.read_apply]
  show (V m c main_v17 : S1x256.Idx → EReal) _ = _
  rw [← entry_bias m c q]
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-! ## What a point writes back, the cover, the array -/

/-- Point `t` writes back tile `t` of the result. -/
theorem flushed_eq (c : Dev nD) (t : Fin cfg0.N) :
    (dats m 0 c).flushed 5 t = ((cfg0.win 5).blk t).view.read (Elt Ideal) (result m c) := by
  rw [flushed5]
  unfold out0_5
  rw [View.canon_unit_zero zero_offsets]
  simp only [View.ld_unit_zero (S := S1000x256) zero_offsets, View.ld_unit_zero (S := S256x256) zero_offsets,
    View.ld_unit_zero (S := S1x256) zero_offsets]
  have hN : t.val < 10 := lt_of_lt_of_eq t.isLt (N_0 : cfg0.N = 10)
  obtain ⟨-, -, -, -, -, -, -, -, -, -, e0, e1⟩ := block_indices t
  funext j
  obtain ⟨p, q, rfl⟩ : ∃ (p : Fin 1000) (q : Fin 256), j = ix2 p q := ⟨j 0, j 1, eq_ix2 j⟩
  have hp : p.val < 1000 := p.isLt
  have hemb : ((cfg0.win 5).blk t).view.emb (ix2 p q) = ix2 (⟨1000 * t.val + p.val, by omega⟩ : Fin 10000) q :=
    funext fun a => Fin.ext (by
      match a with
      | ⟨0, _⟩ => show win0_5.index t (0 : Fin 2) * 1000 + 1 * p.val = 1000 * t.val + p.val; rw [e0]; omega
      | ⟨1, _⟩ => show win0_5.index t (1 : Fin 2) * 256 + 1 * q.val = q.val; rw [e1]; omega)
  show k0_pay1 (F := Ideal) (iblk m c 0 t) (iblk m c 1 t) (iblk m c 2 t) (iblk m c 3 t) (iblk m c 4 t) (ix2 p q)
      = result m c (((cfg0.win 5).blk t).view.emb (ix2 p q))
  rw [hemb]
  refine (Tile.stored_apply (iblk m c 0 t) (iblk m c 1 t) (iblk m c 2 t) (iblk m c 3 t) (iblk m c 4 t) p q).trans ?_
  unfold result layer
  refine congrArg (fun z => max z (0 : EReal)) ?_
  refine congrArg₂ (· + ·) (congrArg₂ (· + ·) (Finset.sum_congr rfl fun k _ => ?_) (Finset.sum_congr rfl fun k _ => ?_)) ?_
  · exact congrArg₂ (· * ·) (tile_features m c t _ p rfl k) (block_weight_lo m c t k q)
  · exact congrArg₂ (· * ·) (tile_messages m c t _ p rfl k) (block_weight_hi m c t k q)
  · exact block_bias m c t q

/-- An index of the array lies in point `t`'s tile iff each coordinate is in the tile's range. -/
theorem mem_tile (t : Fin cfg0.N) (i : S10000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v18).slice (win0_5.rect t)).set ↔ _
  rw [View.set_slice_whole, Rect.mem_set_unit]
  exact Iff.rfl

/-- Every index of the array is in some point's tile: row `n` in tile `n / 1000`. -/
theorem tiles_cover (i : S10000x256.Idx) :
    ∃ t : Fin cfg0.N, (cfg0.win 5).flush t = true ∧ i ∈ ((cfg0.win 5).blk t).view.set := by
  have h0 : (i 0).val < 10000 := (i 0).isLt
  have h1 : (i 1).val < 256 := (i 1).isLt
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, -, -, -, -, -, -, e0, e1⟩ := block_indices t
  refine ⟨t, flush0_5 t, ?_⟩
  rw [mem_tile]
  intro a
  match a with
  | ⟨0, _⟩ =>
    show win0_5.index t (0 : Fin 2) * 1000 ≤ (i 0).val ∧ (i 0).val < win0_5.index t (0 : Fin 2) * 1000 + 1000
    rw [e0, ht]; omega
  | ⟨1, _⟩ =>
    show win0_5.index t (1 : Fin 2) * 256 ≤ (i 1).val ∧ (i 1).val < win0_5.index t (1 : Fin 2) * 256 + 256
    rw [e1]; omega

/-- The result array after the run is the layer of the arguments. -/
theorem final (c : Dev nD) : (dats m 0 c).arrAt 5 cfg0.N = result m c :=
  (dats m 0 c).arrAt_eq_of_cover 5 (result m c) (fun t _ => flushed_eq m c t) tiles_cover

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.RefLayer.lean ====
/-
  The reference's result, read one element at a time, is the layer of `Spec.lean`.

  The reference joins the node features `x` and the summed messages `r` side by side into a [10000, 512] array `h`,
  contracts `h` with the transposed [512, 256] weight, adds the bias repeated over the rows and takes the maximum with
  zero.  At row `n`, feature `d`:   max ( Σ_{k<512} h[n,k]·W[d,k] + b[d] , 0 ).
  Column `k < 256` of `h` is `x[n,k]` and column `256 + k` is `r[n,k]`, so splitting the 512-column sum at 256 gives
  the layer's two half-sums.
-/
import proofs.«182218_j17403207483852_2_alg».proof.Proof.Gen.ReferenceIdeal.Read
import proofs.«182218_j17403207483852_2_alg».proof.Proof.Spec

noncomputable section

open scoped BigOperators
open Idealize.ShloMosaic Idealize.ShloMosaic.ValueIdx

namespace Cert.ReferenceIdeal.Layer

open Cert.ReferenceIdeal Cert.ReferenceIdeal.Gen Cert.ReferenceIdeal.Read Cert.LinRelu

variable (x0 : S10000x256.Idx → EReal) (x1 : S320000x256.Idx → EReal) (x2 x3 : S320000.Idx → BitVec 32)
  (x4 : S256x512.Idx → EReal) (x5 : S256.Idx → EReal)

/-- A column of the joined array's first half holds the node feature. -/
theorem joined_lo (n : Fin 10000) (k : Fin 256) :
    val_main_v11 (F := Ideal) x0 x1 x2 x3 (ix2 n (colLo k)) = x0 (ix2 n k) := by
  unfold val_main_v11
  exact concatenate_pair_apply_left (1 : Fin S10000x512.rank) x0 _ concatenates_S10000x256_S10000x256_S10000x512_d1
    (ix2 n (colLo k)) rfl (ix2 n k) (fun b => match b with
      | ⟨0, _⟩ => rfl
      | ⟨1, _⟩ => rfl)

/-- A column of the joined array's second half holds the summed message. -/
theorem joined_hi (n : Fin 10000) (k : Fin 256) :
    val_main_v11 (F := Ideal) x0 x1 x2 x3 (ix2 n (colHi k)) = val_main_v10 (F := Ideal) x0 x1 x2 x3 (ix2 n k) := by
  unfold val_main_v11
  exact concatenate_pair_apply_right (1 : Fin S10000x512.rank) x0 _ concatenates_S10000x256_S10000x256_S10000x512_d1
    (ix2 n (colHi k)) rfl rfl (ix2 n k) (fun b hb => match b, hb with
      | ⟨0, _⟩, _ => rfl
      | ⟨1, _⟩, hb => absurd rfl hb)
    (show k.val + 256 = 256 + k.val by omega)

/-- The reference's result is the layer of the node features, the summed messages, the weight and the bias. -/
theorem result_eq :
    val_main_v17 (F := Ideal) x0 x1 x2 x3 x4 x5 = layer x0 (val_main_v10 (F := Ideal) x0 x1 x2 x3) x4 x5 := by
  funext i
  obtain ⟨n, d, rfl⟩ : ∃ (n : Fin 10000) (d : Fin 256), i = ix2 n d := ⟨i 0, i 1, eq_ix2 i⟩
  have eL : ∀ k : Fin 512, lidx_main_v13 (ix2 n d) k = ix2 n k := fun k => funext fun a => Fin.ext (by
    match a with
    | ⟨0, _⟩ => rfl
    | ⟨1, _⟩ => rfl)
  have eR : ∀ k : Fin 512, idx_main_v12 (ridx_main_v13 (ix2 n d) k) = ix2 d k := fun k => funext fun a => Fin.ext (by
    match a with
    | ⟨0, _⟩ => rfl
    | ⟨1, _⟩ => rfl)
  have eB : idx_main_v14 (idx_main_v15 (ix2 n d)) = ix1 d := funext fun a => Fin.ext (by
    match a with
    | ⟨0, _⟩ => rfl)
  rw [val_main_v17_apply, val_main_v16_apply, val_main_v13_apply, val_main_v15_apply, val_main_v14_apply,
    val_main_call0_v0_apply, val_main_call0_cst_apply, eB]
  simp only [val_main_v12_apply, eL, eR]
  rw [sum_cols_split]
  simp only [joined_lo, joined_hi]
  show max (_ + _) (Ideal.ofBits .f32 0x00000000#32) = _
  rw [Ideal.ofBits_zero_f32]
  rfl

end Cert.ReferenceIdeal.Layer

end
-- ==== Proof.lean ====
/-
  A graph layer: every node's row of features `x`, beside the sum `r` of the messages arriving at the node (for each
  edge the source node's row times the edge's features, added into the destination node's row), goes through one
  linear map with a [256, 512] weight `W` and a bias `b`, then a maximum with zero.

  One program forms `r` on the host and then, tile of 1000 rows by tile, multiplies `x` by the first 256 columns of
  `W` and `r` by the last 256, adds the two products and the bias and clamps at zero.  The other forms the same `r`,
  joins `x` and `r` into 512 columns, contracts with the whole of `W`, adds the bias and clamps.  On the extended
  reals both compute, at row n and feature d,
      max ( Σ_{k<256} x[n,k]·W[d,k] + Σ_{k<256} r[n,k]·W[d,256+k] + b[d] , 0 ):
  the only law between them splits a sum over 512 columns at column 256, a re-bracketing of a finite sum that needs
  no finiteness of the entries (the precondition is not used).  The summed messages are the same term of the arguments
  in both programs and are never opened.

  `Spec.lean` states the layer and the splitting law; `Payload.lean` reads the stored tile at an element;
  `Entry.lean` reads the arrays the launch finds (the weight halves transposed, the bias row, the summed messages);
  `Whole.lean` carries the tiles to the whole array and restates the run; `RefLayer.lean` reads the joined-column
  program at an element.  Here: the three frames, and the two runs side by side.
-/
import proofs.«182218_j17403207483852_2_alg».proof.Defs
import proofs.«182218_j17403207483852_2_alg».proof.Proof.Gen.Kernel
import proofs.«182218_j17403207483852_2_alg».proof.Proof.Gen.Kernel.Skeleton
import proofs.«182218_j17403207483852_2_alg».proof.Proof.Gen.Kernel.Launch
import proofs.«182218_j17403207483852_2_alg».proof.Proof.Gen.Kernel.Points
import proofs.«182218_j17403207483852_2_alg».proof.Proof.Gen.Kernel.Frame
import proofs.«182218_j17403207483852_2_alg».proof.Proof.Gen.KernelIdeal
import proofs.«182218_j17403207483852_2_alg».proof.Proof.Gen.KernelIdeal.Skeleton
import proofs.«182218_j17403207483852_2_alg».proof.Proof.Gen.KernelIdeal.Launch
import proofs.«182218_j17403207483852_2_alg».proof.Proof.Gen.KernelIdeal.Points
import proofs.«182218_j17403207483852_2_alg».proof.Proof.Gen.KernelIdeal.Frame
import proofs.«182218_j17403207483852_2_alg».proof.Proof.Gen.ReferenceIdeal
import proofs.«182218_j17403207483852_2_alg».proof.Proof.Gen.Pre_finite_inputs
import proofs.«182218_j17403207483852_2_alg».proof.Proof.Gen.KernelIdeal.Value
import proofs.«182218_j17403207483852_2_alg».proof.Proof.Gen.ReferenceIdeal.Run
import proofs.«182218_j17403207483852_2_alg».proof.Proof.Gen.ReferenceIdeal.Read
import proofs.«182218_j17403207483852_2_alg».proof.Proof.Whole
import proofs.«182218_j17403207483852_2_alg».proof.Proof.RefLayer
import Idealize.ShloMosaic.Adequacy
import Idealize.ShloMosaic.Init

noncomputable section

namespace Cert.Proof

open Idealize.ShloMosaic Idealize.ShloMosaic.TcCoe Idealize.SL.Sem

/-- The tiled program as printed runs and leaves its arguments as they were. -/
theorem frame_tiled : Cert.frame_Kernel := fun m ρ _ => Cert.Kernel.Gen.frame m ρ

/-- So does its reading on the extended reals. -/
theorem frame_tiled_ideal : Cert.frame_KernelIdeal := fun m ρ _ => Cert.KernelIdeal.Gen.frame m ρ

/-- The joined-column program runs and leaves its arguments as they were: its run with the result dropped. -/
theorem frame_joined : Cert.frame_ReferenceIdeal := fun m ρ _ =>
  (θ_run Cert.ReferenceIdeal.defs _ _).mono (fun _ h c => (h c).2) (Cert.ReferenceIdeal.Value.run (F := Ideal) m ρ)

/-- The summed messages are one term of the arguments in both programs. -/
theorem messages_agree (x0 : Cert.KernelIdeal.S10000x256.Idx → EReal) (x1 : Cert.KernelIdeal.S320000x256.Idx → EReal)
    (x2 x3 : Cert.KernelIdeal.S320000.Idx → BitVec 32) :
    Cert.KernelIdeal.Entry.messages x0 x1 x2 x3 = Cert.ReferenceIdeal.Read.val_main_v10 (F := Ideal) x0 x1 x2 x3 := rfl

/-- From memories that agree on the arguments both programs end with the layer of the arguments in their result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v17_eq, Cert.ReferenceIdeal.Layer.result_eq, a0, a1, a2, a3, a4, a5]
  show Cert.LinRelu.layer _ _ _ _ = Cert.LinRelu.layer _ (Cert.KernelIdeal.Entry.messages _ _ _ _) _ _
  rw [messages_agree]

theorem claim : Cert.Claim := ⟨Cert.Kernel.Gen.facts, Cert.KernelIdeal.Gen.facts, Cert.ReferenceIdeal.Gen.facts, Cert.Pre_finite_inputs.Gen.facts,
  frame_tiled, frame_tiled_ideal, frame_joined, trivial, algebraic⟩

end Cert.Proof

end
